-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S50000x64 : Shape := ⟨2, ![50000, 64]⟩
abbrev S5000x64 : Shape := ⟨2, ![5000, 64]⟩
abbrev S800000x64 : Shape := ⟨2, ![800000, 64]⟩

abbrev nBuf : Space → Nat
  | .hbm => 44
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x64, .f32⟩
  | .hbm, ⟨6, _⟩ => ⟨S50000x128, .bf16⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .bf16⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x128, .f32⟩
  | .hbm, ⟨25, _⟩ => ⟨S50000x64, .f32⟩
  | .hbm, ⟨26, _⟩ => ⟨S50000x64, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .bf16⟩
  | .hbm, ⟨36, _⟩ => ⟨S800000x64, .f32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S50000x64 : Shape := ⟨2, ![50000, 64]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The whole program's run with its RESULT read: every weakly fair execution of @main terminates, nothing faulting, the
  argument arrays end as launched, and the result buffer ends at what the program's last stretch of host operations
  leaves in it. @main is four segments: host operations, the first matrix-product region, the second, host operations.
  The buffer contents at the segment boundaries are a fold from the launch memory; the last of them, read at the
  result's reference, is the value the later modules compute.
-/
import proofs.«137338_j34660386078859_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments from the launch memory: the final state holds, at every unscoped buffer, the last
    boundary's contents; the result buffer is one of them, and each argument walks back to its launch contents. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Whole

end
-- ==== Proof.LibSegment.lean ====
/-
  Row gathers and row scatter-adds with ONE index column, read at an index.

  The host programs index a table by a column of E signed words: `idx : [E, 1]`.
  * A gather of rows of `x : [N, K]` (or of entries of `x : [N]`) reads, at row `e`, the table row whose number
    is the word `idx[e, 0]` read signed and clamped into `[0, N - 1]` (`clampRow`).
  * An accumulating scatter of the rows of `upd : [E, K]` (or of the entries of `upd : [E]`) into `x` adds row `e`
    to the table row whose number is `idx[e, 0]` read signed, NOT clamped: a word outside `[0, N)` adds nothing.
    At the ideal instance the result at `(n, k)` is `x (n, k)` plus the sum, over every `e`, of
    `upd (e, k)` if `idx[e, 0] = n` and `0` otherwise.
  Everything is generic in the extents `N`, `E`, `K` and the word width; a program's printed dimension record
  is identified with the record here by `rfl`.
-/
import Idealize.ShloMosaic.Lib.ValueIdx
import Idealize.ShloMosaic.PureOps.Ideal.Laws

noncomputable section

open scoped BigOperators

namespace Idealize.ShloMosaic.SegmentIdx

open Idealize.ShloMosaic Idealize.ShloMosaic.ValueIdx

/-- A signed word clamped to a row number of a table with `N` rows: `min (max v 0) (N - 1)`. -/
def clampRow (N : Nat) (hN : 0 < N) {w : Nat} (v : BitVec w) : Fin N := ⟨min v.toInt.toNat (N - 1), by omega⟩

/-- A signed word that is a row number is its own clamp. -/
theorem clampRow_of_eq {N : Nat} (hN : 0 < N) {w : Nat} (v : BitVec w) (n : Fin N) (h : v.toInt = (n.val : ℤ)) :
    clampRow N hN v = n := by
  apply Fin.ext
  show min v.toInt.toNat (N - 1) = n.val
  rw [h, Int.toNat_natCast]
  have := n.isLt
  omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Gathers -/

section Gather
variable {α : Type}

/-- `x[idx]` for a table of rows: operand `[N, K]`, start indices `[E, 1]`, result `[E, K]`. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e` of the gather is the table's row `clampRow idx[e, 0]`. -/
theorem gatherRows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k) = x (ix2 (clampRow N hN (idx (ix2 e 0))) k) := by
  unfold Host.gather
  congr 1
  funext a
  refine Fin.ext ?_
  match a with
  | ⟨0, _⟩ =>
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E K wf).start (ix2 e k) idx 1 + (gatherRowsDims N E K wf).batchCoord (ix2 e k) 1
      + (gatherRowsDims N E K wf).offCoord (ix2 e k) 1 = _
    rw [GatherDims.batchCoord_eq_zero _ _ _ List.not_mem_nil]
    have hs : (gatherRowsDims N E K wf).start (ix2 e k) idx 1 = 0 := by
      unfold GatherDims.start
      rw [dif_neg (fun h => Nat.one_ne_zero (congrArg Fin.val (List.mem_singleton.mp h)))]
    rw [hs]
    simp only [Nat.add_zero, Nat.zero_add]
    rfl

/-- `x[idx]` for a flat table: operand `[N]`, start indices `[E, 1]`, result `[E]`. -/
abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table's entry `clampRow idx[e, 0]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlatDims N E wf) x idx (ix1 e) = x (ix1 (clampRow N hN (idx (ix2 e 0)))) := by
  unfold Host.gather
  congr 1
  funext a
  obtain rfl : a = 0 := Subsingleton.elim _ _
  refine Fin.ext ?_
  show (gatherFlatDims N E wf).start (ix1 e) idx 0 + (gatherFlatDims N E wf).batchCoord (ix1 e) 0
    + (gatherFlatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlatDims N E wf).startIndexMap from List.mem_singleton.mpr rfl)]
  have hsi : (gatherFlatDims N E wf).siIdx (ix1 e) ⟨List.idxOf (0 : Fin 1) (gatherFlatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Accumulating scatters, at the ideal instance -/

section Scatter

/-- `x.at[idx].add(upd)` for a table of rows: operand `[N, K]`, scatter indices `[E, 1]`, updates `[E, K]`. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat}

/-- Update `(e, k')` lands on `(n, k)` exactly when the word `idx[e, 0]`, read signed, is `n` and `k' = k`. -/
theorem scatterRows_lands (wf : ScatterDims.WF ⟨2, ![N, K]⟩ ⟨2, ![E, 1]⟩ ⟨2, ![E, K]⟩ [1] [0] [0] 1)
    (idx : IVec ⟨2, ![E, 1]⟩ w) (e : Fin E) (k' : Fin K) (n : Fin N) (k : Fin K) :
    (scatterRowsDims N E K wf).resultIdx? (ix2 e k') idx = some (ix2 n k)
      ↔ ((idx (ix2 e 0)).toInt = (n.val : ℤ) ∧ k' = k) := by
  have hs0 : (scatterRowsDims N E K wf).start (ix2 e k') idx 0 = (idx (ix2 e 0)).toInt := by
    unfold ScatterDims.start
    rw [dif_pos (show (0 : Fin 2) ∈ (scatterRowsDims N E K wf).scatterDimsToOperandDims from List.mem_singleton.mpr rfl)]
    have hsi : (scatterRowsDims N E K wf).siIdx (ix2 e k') ⟨List.idxOf (0 : Fin 2) (scatterRowsDims N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatterRowsDims N E K wf).start (ix2 e k') idx 1 = 0 := by
    unfold ScatterDims.start
    rw [dif_neg (fun h => Nat.one_ne_zero (congrArg Fin.val (List.mem_singleton.mp h)))]
  have hw0 : (scatterRowsDims N E K wf).window (ix2 e k') 0 = 0 := rfl
  have hw1 : (scatterRowsDims N E K wf).window (ix2 e k') 1 = k'.val := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      rw [hs0, hw0] at hin0
      refine ⟨?_, Fin.ext ?_⟩
      · change ((idx (ix2 e 0)).toInt + ((0 : ℕ) : ℤ)).toNat = n.val at h0
        omega
      · change ((0 : ℤ) + (k'.val : ℤ)).toNat = k.val at h1
        omega
    · exact absurd h (by simp)
  · rintro ⟨hv, rfl⟩
    have hin0 : 0 ≤ (scatterRowsDims N E K wf).start (ix2 e k') idx 0 + (scatterRowsDims N E K wf).window (ix2 e k') 0
        ∧ (scatterRowsDims N E K wf).start (ix2 e k') idx 0 + (scatterRowsDims N E K wf).window (ix2 e k') 0
          < (⟨2, ![N, K]⟩ : Shape).size 0 := by
      rw [hs0, hw0, hv]
      have := n.isLt
      constructor
      · omega
      · show ((n.val : ℤ) + ((0 : ℕ) : ℤ)) < (N : ℤ)
        omega
    have hin1 : 0 ≤ (scatterRowsDims N E K wf).start (ix2 e k') idx 1 + (scatterRowsDims N E K wf).window (ix2 e k') 1
        ∧ (scatterRowsDims N E K wf).start (ix2 e k') idx 1 + (scatterRowsDims N E K wf).window (ix2 e k') 1
          < (⟨2, ![N, K]⟩ : Shape).size 1 := by
      rw [hs1, hw1]
      have := k'.isLt
      constructor
      · omega
      · show ((0 : ℤ) + (k'.val : ℤ)) < (K : ℤ)
        omega
    have hin : ∀ a, 0 ≤ (scatterRowsDims N E K wf).start (ix2 e k') idx a + (scatterRowsDims N E K wf).window (ix2 e k') a
        ∧ (scatterRowsDims N E K wf).start (ix2 e k') idx a + (scatterRowsDims N E K wf).window (ix2 e k') a
          < (⟨2, ![N, K]⟩ : Shape).size a := fun a =>
      match a with
      | ⟨0, _⟩ => hin0
      | ⟨1, _⟩ => hin1
    rw [dif_pos hin]
    refine congrArg some (funext fun a => Fin.ext ?_)
    match a with
    | ⟨0, _⟩ =>
      show ((scatterRowsDims N E K wf).start (ix2 e k') idx 0 + (scatterRowsDims N E K wf).window (ix2 e k') 0).toNat = n.val
      rw [hs0, hw0, hv]
      omega
    | ⟨1, _⟩ =>
      show ((scatterRowsDims N E K wf).start (ix2 e k') idx 1 + (scatterRowsDims N E K wf).window (ix2 e k') 1).toNat = k'.val
      rw [hs1, hw1]
      omega

/-- THE ROW SCATTER-ADD AT AN ENTRY: `x (n, k)` plus, over every update row `e`, `upd (e, k)` when the word
    `idx[e, 0]` is `n`. -/
theorem scatterAddRows_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (n : Fin N) (k : Fin K) :
    Host.scatterAdd (F := Ideal) (scatterRowsDims N E K wf) x idx upd (ix2 n k)
      = x (ix2 n k) + ∑ e : Fin E, if (idx (ix2 e 0)).toInt = (n.val : ℤ) then upd (ix2 e k) else 0 := by
  show x (ix2 n k) + ∑ j ∈ Finset.univ.filter
      (fun j => (scatterRowsDims N E K wf).resultIdx? j idx = some (ix2 n k)), upd j = _
  congr 1
  rw [Finset.sum_filter, sum_idx2]
  refine Finset.sum_congr rfl fun e _ => ?_
  simp only [scatterRows_lands wf idx e _ n k]
  by_cases hv : (idx (ix2 e 0)).toInt = (n.val : ℤ)
  · simp only [hv, true_and, if_true]
    rw [Finset.sum_ite_eq' Finset.univ k (fun k' => upd (ix2 e k'))]
    simp
  · simp only [hv, false_and, if_false]
    exact Finset.sum_const_zero

/-- `x.at[idx].add(upd)` for a flat table: operand `[N]`, scatter indices `[E, 1]`, updates `[E]`. -/
abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `n` exactly when the word `idx[e, 0]`, read signed, is `n`. -/
theorem scatterFlat_lands (wf : ScatterDims.WF ⟨1, ![N]⟩ ⟨2, ![E, 1]⟩ ⟨1, ![E]⟩ [] [0] [0] 1)
    (idx : IVec ⟨2, ![E, 1]⟩ w) (e : Fin E) (n : Fin N) :
    (scatterFlatDims N E wf).resultIdx? (ix1 e) idx = some (ix1 n) ↔ (idx (ix2 e 0)).toInt = (n.val : ℤ) := by
  have hs0 : (scatterFlatDims N E wf).start (ix1 e) idx 0 = (idx (ix2 e 0)).toInt := by
    unfold ScatterDims.start
    rw [dif_pos (show (0 : Fin 1) ∈ (scatterFlatDims N E wf).scatterDimsToOperandDims from List.mem_singleton.mpr rfl)]
    have hsi : (scatterFlatDims N E wf).siIdx (ix1 e) ⟨List.idxOf (0 : Fin 1) (scatterFlatDims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (scatterFlatDims N E wf).window (ix1 e) 0 = 0 := rfl
  unfold ScatterDims.resultIdx?
  constructor
  · intro h
    split at h
    · rename_i hin
      have hf := Option.some.inj h
      have h0 := congrArg (fun f => (f 0).val) hf
      simp only [hs0, hw0] at h0
      have hin0 := hin 0
      rw [hs0, hw0] at hin0
      change ((idx (ix2 e 0)).toInt + ((0 : ℕ) : ℤ)).toNat = n.val at h0
      omega
    · exact absurd h (by simp)
  · intro hv
    have hin0 : 0 ≤ (scatterFlatDims N E wf).start (ix1 e) idx 0 + (scatterFlatDims N E wf).window (ix1 e) 0
        ∧ (scatterFlatDims N E wf).start (ix1 e) idx 0 + (scatterFlatDims N E wf).window (ix1 e) 0
          < (⟨1, ![N]⟩ : Shape).size 0 := by
      rw [hs0, hw0, hv]
      have := n.isLt
      constructor
      · omega
      · show ((n.val : ℤ) + ((0 : ℕ) : ℤ)) < (N : ℤ)
        omega
    have hin : ∀ a, 0 ≤ (scatterFlatDims N E wf).start (ix1 e) idx a + (scatterFlatDims N E wf).window (ix1 e) a
        ∧ (scatterFlatDims N E wf).start (ix1 e) idx a + (scatterFlatDims N E wf).window (ix1 e) a
          < (⟨1, ![N]⟩ : Shape).size a := fun a =>
      match a with
      | ⟨0, _⟩ => hin0
    rw [dif_pos hin]
    refine congrArg some (funext fun a => Fin.ext ?_)
    match a with
    | ⟨0, _⟩ =>
      show ((scatterFlatDims N E wf).start (ix1 e) idx 0 + (scatterFlatDims N E wf).window (ix1 e) 0).toNat = n.val
      rw [hs0, hw0, hv]
      omega

/-- THE FLAT SCATTER-ADD AT AN ENTRY: `x n` plus, over every update `e`, `upd e` when the word `idx[e, 0]` is `n`. -/
theorem scatterAddFlat_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterFlatDims N E wf) x idx upd (ix1 n)
      = x (ix1 n) + ∑ e : Fin E, if (idx (ix2 e 0)).toInt = (n.val : ℤ) then upd (ix1 e) else 0 := by
  show x (ix1 n) + ∑ j ∈ Finset.univ.filter
      (fun j => (scatterFlatDims N E wf).resultIdx? j idx = some (ix1 n)), upd j = _
  congr 1
  rw [Finset.sum_filter, sum_idx1]
  refine Finset.sum_congr rfl fun e _ => ?_
  simp only [scatterFlat_lands wf idx e n]

end Scatter

end Idealize.ShloMosaic.SegmentIdx

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«137338_j34660386078859_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibProjectThroughSum.lean ====
/-
  A projection moved through a weighted, selected sum of rows.

  Fix a finite family of "edges" e, each carrying a weight v e, a row X e of K numbers and a test P e saying whether the
  edge contributes. Projecting every row through a column w (the dot product of X e with w) and then adding up the
  contributing edges' weighted projections gives the same number as first adding up the contributing edges' weighted
  rows, entry by entry, and projecting the total:

      sum_e [P e] v e * (sum_k X e k * w k)  =  sum_k (sum_e [P e] v e * X e k) * w k.

  Over the reals this is distributivity and an exchange of the two finite sums. On the extended reals distributivity fails
  at the infinities, so the statement there asks every v e, X e k and w k to be a real number; both sides are then the
  coercion of the real identity.
-/
import Idealize.ShloMosaic.PureOps.Ideal

noncomputable section

open scoped BigOperators

namespace Cert.ProjectThroughSum

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A selected real, coerced, is the coercion of the selected real. -/
theorem ite_coe (p : Prop) [Decidable p] (a : ℝ) :
    (if p then (a : EReal) else 0) = ((if p then a else 0 : ℝ) : EReal) := by
  split <;> simp

/-- The identity over the reals: distribute each weighted projection over its row, then exchange the sums. -/
theorem project_sum_real {E K : ℕ} (P : Fin E → Prop) [DecidablePred P] (v : Fin E → ℝ) (X : Fin E → Fin K → ℝ)
    (w : Fin K → ℝ) :
    (∑ e, if P e then v e * ∑ k, X e k * w k else 0) = ∑ k, (∑ e, if P e then v e * X e k else 0) * w k := by
  simp_rw [Finset.sum_mul]
  rw [Finset.sum_comm]
  refine Finset.sum_congr rfl fun e _ => ?_
  by_cases h : P e
  · simp only [h, if_true, Finset.mul_sum, mul_assoc]
  · simp only [h, if_false, zero_mul, Finset.sum_const_zero]

/-- The identity on the extended reals, for weights, rows and a column that are real numbers. -/
theorem project_sum {E K : ℕ} (P : Fin E → Prop) [DecidablePred P] (v : Fin E → EReal) (X : Fin E → Fin K → EReal)
    (w : Fin K → EReal) (hv : ∀ e, ∃ r : ℝ, v e = r) (hX : ∀ e k, ∃ r : ℝ, X e k = r) (hw : ∀ k, ∃ r : ℝ, w k = r) :
    (∑ e, if P e then v e * ∑ k, X e k * w k else 0) = ∑ k, (∑ e, if P e then v e * X e k else 0) * w k := by
  choose vr hvr using hv
  choose Xr hXr using hX
  choose wr hwr using hw
  simp only [hvr, hXr, hwr, ← EReal.coe_mul, ← coe_sum, ite_coe]
  exact congrArg _ (project_sum_real P vr Xr wr)

end Cert.ProjectThroughSum

end
-- ==== Proof.LibAggregate.lean ====
/-
  Weighted aggregation of table rows along edges, and a matrix product moved through it.

  An edge list has E edges; edge e has a target row, given as a signed word ri[e, 0], a source row, given as a signed word
  ci[e, 0], and a weight v[e, 0]. Aggregating a table tbl with N rows and K columns along the edges produces the table

      (aggregate tbl)[n, k] = 0 + sum over the edges e whose target word is n of  v[e, 0] * tbl[src e, k],

  where src e is the source word clamped into [0, N - 1] (a gather clamps its start indices) and an edge whose target
  word is no row number adds nothing (an accumulating scatter drops it). As host operations this is: the weights' column
  spread over the K columns, times the gather of the table's rows, scatter-added into the zero table.

  Each entry of the aggregate is a finite sum of products of a weight and a table entry, so it is a real number when they
  are, and aggregating commutes with multiplying the table on the right by a matrix W:

      aggregate (tbl * W) = (aggregate tbl) * W,

  entry (n, q) of both sides being  sum_e [target e = n] v e * sum_k tbl[src e, k] * W[k, q]  by distributivity and an
  exchange of the two sums; this is where the entries have to be real numbers.
-/
import proofs.«137338_j34660386078859_2_alg».proof.Proof.LibSegment
import proofs.«137338_j34660386078859_2_alg».proof.Proof.LibDotGeneralPlain
import proofs.«137338_j34660386078859_2_alg».proof.Proof.LibHostBroadcast
import proofs.«137338_j34660386078859_2_alg».proof.Proof.LibProjectThroughSum

noncomputable section

open scoped BigOperators

namespace Cert.Aggregate

open Idealize.ShloMosaic Idealize.ShloMosaic.ValueIdx Idealize.ShloMosaic.SegmentIdx
open Cert.LibDotGeneralPlain Cert.LibHostBroadcast

variable {N E : ℕ}

/-- The aggregation of a table's rows along the edges, as the host computes it. -/
def aggregate (K : ℕ)
    (hg : GatherDims.WF ⟨2, ![N, K]⟩ ⟨2, ![E, 1]⟩ ⟨2, ![E, K]⟩ [1] [0] [] [0] [] 1 ![1, K])
    (hs : ScatterDims.WF ⟨2, ![N, K]⟩ ⟨2, ![E, 1]⟩ ⟨2, ![E, K]⟩ [1] [0] [0] 1)
    (h0 : (⟨0, ![]⟩ : Shape).BroadcastsInDim ⟨2, ![N, K]⟩ (![] : Fin 0 → Fin 2))
    (hv : (⟨2, ![E, 1]⟩ : Shape).BroadcastsInDim ⟨2, ![E, K]⟩ (![0, 1] : Fin 2 → Fin 2))
    (ri ci : IVec ⟨2, ![E, 1]⟩ 32) (v : FVec Ideal ⟨2, ![E, 1]⟩ .f32) (tbl : FVec Ideal ⟨2, ![N, K]⟩ .f32) :
    FVec Ideal ⟨2, ![N, K]⟩ .f32 :=
  Host.scatterAdd (F := Ideal) (scatterRowsDims N E K hs)
    (broadcastInDim ⟨2, ![N, K]⟩ ![] h0 (constant (F := Ideal) ⟨0, ![]⟩ .f32 0x00000000#32)) ri
    (mulf (broadcastInDim ⟨2, ![E, K]⟩ ![0, 1] hv v) (Host.gather (gatherRowsDims N E K hg) tbl ci))

/-- THE AGGREGATE AT AN ENTRY: the sum, over the edges whose target word is n, of the weight times the table's entry
    in the clamped source row. -/
theorem aggregate_apply {K : ℕ}
    (hg : GatherDims.WF ⟨2, ![N, K]⟩ ⟨2, ![E, 1]⟩ ⟨2, ![E, K]⟩ [1] [0] [] [0] [] 1 ![1, K])
    (hs : ScatterDims.WF ⟨2, ![N, K]⟩ ⟨2, ![E, 1]⟩ ⟨2, ![E, K]⟩ [1] [0] [0] 1)
    (h0 : (⟨0, ![]⟩ : Shape).BroadcastsInDim ⟨2, ![N, K]⟩ (![] : Fin 0 → Fin 2))
    (hv : (⟨2, ![E, 1]⟩ : Shape).BroadcastsInDim ⟨2, ![E, K]⟩ (![0, 1] : Fin 2 → Fin 2))
    (hN : 0 < N) (ri ci : IVec ⟨2, ![E, 1]⟩ 32) (v : FVec Ideal ⟨2, ![E, 1]⟩ .f32)
    (tbl : FVec Ideal ⟨2, ![N, K]⟩ .f32) (n : Fin N) (k : Fin K) :
    aggregate K hg hs h0 hv ri ci v tbl (ix2 n k)
      = ∑ e : Fin E, if (ri (ix2 e 0)).toInt = (n.val : ℤ)
          then v (ix2 e 0) * tbl (ix2 (clampRow N hN (ci (ix2 e 0))) k) else 0 := by
  unfold aggregate
  rw [scatterAddRows_apply, bcast_scalar_apply, constant_apply, Ideal.ofBits_zero_f32, zero_add]
  refine Finset.sum_congr rfl fun e _ => ?_
  rw [mulf_apply, bcast_a1_ab_apply _ rfl, gatherRows_apply hN]

/-- AGGREGATING COMMUTES WITH A MATRIX PRODUCT on tables, weights and matrices of real numbers: aggregating the rows of
    x * W is the aggregate of x's rows times W. The two aggregates run over the same edges with the same weights; only
    the number of columns differs (Q on the left, K on the right). -/
theorem aggregate_matProd {K Q : ℕ}
    (hgK : GatherDims.WF ⟨2, ![N, K]⟩ ⟨2, ![E, 1]⟩ ⟨2, ![E, K]⟩ [1] [0] [] [0] [] 1 ![1, K])
    (hsK : ScatterDims.WF ⟨2, ![N, K]⟩ ⟨2, ![E, 1]⟩ ⟨2, ![E, K]⟩ [1] [0] [0] 1)
    (h0K : (⟨0, ![]⟩ : Shape).BroadcastsInDim ⟨2, ![N, K]⟩ (![] : Fin 0 → Fin 2))
    (hvK : (⟨2, ![E, 1]⟩ : Shape).BroadcastsInDim ⟨2, ![E, K]⟩ (![0, 1] : Fin 2 → Fin 2))
    (hgQ : GatherDims.WF ⟨2, ![N, Q]⟩ ⟨2, ![E, 1]⟩ ⟨2, ![E, Q]⟩ [1] [0] [] [0] [] 1 ![1, Q])
    (hsQ : ScatterDims.WF ⟨2, ![N, Q]⟩ ⟨2, ![E, 1]⟩ ⟨2, ![E, Q]⟩ [1] [0] [0] 1)
    (h0Q : (⟨0, ![]⟩ : Shape).BroadcastsInDim ⟨2, ![N, Q]⟩ (![] : Fin 0 → Fin 2))
    (hvQ : (⟨2, ![E, 1]⟩ : Shape).BroadcastsInDim ⟨2, ![E, Q]⟩ (![0, 1] : Fin 2 → Fin 2))
    (hN : 0 < N) (ri ci : IVec ⟨2, ![E, 1]⟩ 32) (v : FVec Ideal ⟨2, ![E, 1]⟩ .f32)
    (x : FVec Ideal ⟨2, ![N, K]⟩ .f32) (W : FVec Ideal ⟨2, ![K, Q]⟩ .f32)
    (hv : ∀ i, ∃ r : ℝ, v i = r) (hx : ∀ i, ∃ r : ℝ, x i = r) (hW : ∀ i, ∃ r : ℝ, W i = r) :
    aggregate Q hgQ hsQ h0Q hvQ ri ci v (matProd x W) = matProd (aggregate K hgK hsK h0K hvK ri ci v x) W := by
  funext i
  obtain ⟨n, q, rfl⟩ : ∃ (n : Fin N) (q : Fin Q), i = ix2 n q := ⟨i 0, i 1, eq_ix2 i⟩
  rw [aggregate_apply hgQ hsQ h0Q hvQ hN, matProd_apply]
  simp only [matProd_apply, aggregate_apply hgK hsK h0K hvK hN]
  exact Cert.ProjectThroughSum.project_sum (fun e => (ri (ix2 e 0)).toInt = (n.val : ℤ)) (fun e => v (ix2 e 0))
    (fun e k => x (ix2 (clampRow N hN (ci (ix2 e 0))) k)) (fun k => W (ix2 k q))
    (fun e => hv _) (fun e k => hx _) (fun k => hW _)

end Cert.Aggregate

end
-- ==== Proof.GcnSpec.lean ====
/-
  A two-layer graph convolution on 50000 nodes and 800000 weighted edges, in the two orders its second layer can be
  computed in, and the proof that the two orders agree on real inputs.

  An edge e carries a target word row[e], a source word col[e] and a weight vals[e]. A negative source word is first
  wrapped once by the number of rows (an index counted from the end); the wrapped words, the target words and the
  weights then stand as [E,1] columns. With those columns fixed, aggregating a table T along the edges is

      (A T)[n, k] = sum over the edges e whose target word is n of  vals[e] * T[src e, k]

  (the aggregate of LibAggregate: gather the source rows, scale by the weights, scatter-add into the zero table).
  The first layer is  H = max(A(x) * W1, 0).  The second layer is computed either as  A(H * W2)  (the projection
  first, then 64-wide rows travel along the edges) or as  A(H) * W2  (128-wide rows travel, the projection last).
  Every entry of H is a real number when x, vals and W1 are: A(x) is a finite sum of products of reals, so is the
  matrix product, and the maximum with zero of a real is real. For real H, vals and W2, aggregation commutes with the
  product on the right (LibAggregate.aggregate_matProd: distributivity and an exchange of two finite sums, which is
  where the reals are needed), so the two orders give the same table.
-/
import proofs.«137338_j34660386078859_2_alg».proof.Proof.LibAggregate

noncomputable section

open scoped BigOperators

namespace Cert.Gcn

open Idealize.ShloMosaic Idealize.ShloMosaic.ValueIdx Idealize.ShloMosaic.SegmentIdx
open Cert.LibDotGeneralPlain Cert.LibHostBroadcast Cert.Aggregate

/-! ## Real numbers among the extended reals -/

/-- An extended real that is a real number. -/
def IsReal (a : EReal) : Prop := ∃ r : ℝ, a = r

theorem IsReal.zero : IsReal 0 := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases max_choice a b with h | h <;> rw [h] <;> assumption

theorem IsReal.ite {p : Prop} [Decidable p] {a b : EReal} (ha : IsReal a) (hb : IsReal b) : IsReal (if p then a else b) := by
  split <;> assumption

/-- A finite sum of real numbers is a real number. -/
theorem IsReal.sum {ι : Type*} (s : Finset ι) (f : ι → EReal) (hf : ∀ k, IsReal (f k)) : IsReal (∑ k ∈ s, f k) := by
  classical
  induction s using Finset.induction_on with
  | empty => exact ⟨0, by simp⟩
  | insert a s ha ih =>
    rw [Finset.sum_insert ha]
    obtain ⟨r, hr⟩ := hf a; obtain ⟨t, ht⟩ := ih
    exact ⟨r + t, by rw [hr, ht, EReal.coe_add]⟩

/-- A matrix product of real matrices has real entries. -/
theorem matProd_real {M K Q : ℕ} (x : (⟨2, ![M, K]⟩ : Shape).Idx → EReal) (w : (⟨2, ![K, Q]⟩ : Shape).Idx → EReal)
    (hx : ∀ i, IsReal (x i)) (hw : ∀ i, IsReal (w i)) (i : (⟨2, ![M, Q]⟩ : Shape).Idx) : IsReal (matProd x w i) :=
  IsReal.sum _ _ fun k => (hx _).mul (hw _)

/-! ## The edge columns -/

abbrev SE : Shape := ⟨1, ![800000]⟩
abbrev SE1 : Shape := ⟨2, ![800000, 1]⟩
abbrev S0 : Shape := ⟨0, ![]⟩
abbrev T128 : Shape := ⟨2, ![50000, 128]⟩
abbrev T64 : Shape := ⟨2, ![50000, 64]⟩

/-- The side conditions of the layout operations below: facts about these literal shapes. -/
structure Shapes : Prop where
  g128 : GatherDims.WF T128 SE1 ⟨2, ![800000, 128]⟩ [1] [0] [] [0] [] 1 ![1, 128]
  s128 : ScatterDims.WF T128 SE1 ⟨2, ![800000, 128]⟩ [1] [0] [0] 1
  z128 : S0.BroadcastsInDim T128 (![] : Fin 0 → Fin 2)
  v128 : SE1.BroadcastsInDim ⟨2, ![800000, 128]⟩ (![0, 1] : Fin 2 → Fin 2)
  g64 : GatherDims.WF T64 SE1 ⟨2, ![800000, 64]⟩ [1] [0] [] [0] [] 1 ![1, 64]
  s64 : ScatterDims.WF T64 SE1 ⟨2, ![800000, 64]⟩ [1] [0] [0] 1
  z64 : S0.BroadcastsInDim T64 (![] : Fin 0 → Fin 2)
  v64 : SE1.BroadcastsInDim ⟨2, ![800000, 64]⟩ (![0, 1] : Fin 2 → Fin 2)
  col : SE.BroadcastsInDim SE1 (![0] : Fin 1 → Fin 2)
  zE : S0.BroadcastsInDim SE (![] : Fin 0 → Fin 1)

variable (h : Shapes)

/-- The source words as a column: a negative word is wrapped once by the 50000 rows. -/
def srcCol (col : IVec SE 32) : IVec SE1 32 :=
  broadcastInDim SE1 ![0] h.col
    (select (cmpi .slt col (broadcastInDim SE ![] h.zE (constantI S0 32 0#32)))
      (addi col (broadcastInDim SE ![] h.zE (constantI S0 32 50000#32))) col)

/-- The target words as a column. -/
def tgtCol (row : IVec SE 32) : IVec SE1 32 := broadcastInDim SE1 ![0] h.col row

/-- The weights as a column. -/
def wCol (vals : FVec Ideal SE .f32) : FVec Ideal SE1 .f32 := broadcastInDim SE1 ![0] h.col vals

theorem wCol_real (vals : FVec Ideal SE .f32) (hv : ∀ i, IsReal (vals i)) (i : SE1.Idx) : IsReal (wCol h vals i) := hv _

/-! ## Aggregation along the edges, 128 and 64 columns wide -/

def agg128 (row col : IVec SE 32) (vals : FVec Ideal SE .f32) (tbl : FVec Ideal T128 .f32) : FVec Ideal T128 .f32 :=
  aggregate 128 h.g128 h.s128 h.z128 h.v128 (tgtCol h row) (srcCol h col) (wCol h vals) tbl

def agg64 (row col : IVec SE 32) (vals : FVec Ideal SE .f32) (tbl : FVec Ideal T64 .f32) : FVec Ideal T64 .f32 :=
  aggregate 64 h.g64 h.s64 h.z64 h.v64 (tgtCol h row) (srcCol h col) (wCol h vals) tbl

/-- An aggregate of a real table with real weights has real entries. -/
theorem agg128_real (row col : IVec SE 32) (vals : FVec Ideal SE .f32) (tbl : FVec Ideal T128 .f32)
    (hv : ∀ i, IsReal (vals i)) (ht : ∀ i, IsReal (tbl i)) (i : T128.Idx) : IsReal (agg128 h row col vals tbl i) := by
  obtain ⟨n, k, rfl⟩ : ∃ (n : Fin 50000) (k : Fin 128), i = ix2 n k := ⟨i 0, i 1, eq_ix2 i⟩
  unfold agg128
  rw [aggregate_apply h.g128 h.s128 h.z128 h.v128 (by norm_num : 0 < 50000)]
  exact IsReal.sum _ _ fun e => IsReal.ite ((wCol_real h vals hv _).mul (ht _)) IsReal.zero

/-! ## The two layers -/

/-- The entrywise maximum with zero. -/
def relu (X : FVec Ideal T128 .f32) : FVec Ideal T128 .f32 :=
  maximumf X (broadcastInDim T128 ![] h.z128 (constant (F := Ideal) S0 .f32 0x00000000#32))

theorem relu_apply (X : FVec Ideal T128 .f32) (i : T128.Idx) : relu h X i = max (X i) 0 := by
  unfold relu
  rw [maximumf_apply, bcast_scalar_apply, constant_apply, Ideal.ofBits_zero_f32]

/-- The first layer: aggregate, project by W1, cut at zero. -/
def hidden (row col : IVec SE 32) (vals : FVec Ideal SE .f32) (x : FVec Ideal T128 .f32)
    (W1 : FVec Ideal ⟨2, ![128, 128]⟩ .f32) : FVec Ideal T128 .f32 :=
  relu h (matProd (agg128 h row col vals x) W1)

theorem hidden_real (row col : IVec SE 32) (vals : FVec Ideal SE .f32) (x : FVec Ideal T128 .f32)
    (W1 : FVec Ideal ⟨2, ![128, 128]⟩ .f32) (hv : ∀ i, IsReal (vals i)) (hx : ∀ i, IsReal (x i))
    (hW1 : ∀ i, IsReal (W1 i)) (i : T128.Idx) : IsReal (hidden h row col vals x W1 i) := by
  unfold hidden
  rw [relu_apply]
  exact (matProd_real _ _ (agg128_real h row col vals x hv hx) hW1 i).max IsReal.zero

/-- The second layer with the projection FIRST: 64-wide rows of H * W2 travel along the edges. -/
def outProjectFirst (row col : IVec SE 32) (vals : FVec Ideal SE .f32) (x : FVec Ideal T128 .f32)
    (W1 : FVec Ideal ⟨2, ![128, 128]⟩ .f32) (W2 : FVec Ideal ⟨2, ![128, 64]⟩ .f32) : FVec Ideal T64 .f32 :=
  agg64 h row col vals (matProd (hidden h row col vals x W1) W2)

/-- The second layer with the projection LAST: 128-wide rows of H travel along the edges. -/
def outProjectLast (row col : IVec SE 32) (vals : FVec Ideal SE .f32) (x : FVec Ideal T128 .f32)
    (W1 : FVec Ideal ⟨2, ![128, 128]⟩ .f32) (W2 : FVec Ideal ⟨2, ![128, 64]⟩ .f32) : FVec Ideal T64 .f32 :=
  matProd (agg128 h row col vals (hidden h row col vals x W1)) W2

/-- THE TWO ORDERS AGREE on real features, weights and matrices. -/
theorem out_eq (row col : IVec SE 32) (vals : FVec Ideal SE .f32) (x : FVec Ideal T128 .f32)
    (W1 : FVec Ideal ⟨2, ![128, 128]⟩ .f32) (W2 : FVec Ideal ⟨2, ![128, 64]⟩ .f32)
    (hv : ∀ i, IsReal (vals i)) (hx : ∀ i, IsReal (x i)) (hW1 : ∀ i, IsReal (W1 i)) (hW2 : ∀ i, IsReal (W2 i)) :
    outProjectFirst h row col vals x W1 W2 = outProjectLast h row col vals x W1 W2 :=
  aggregate_matProd h.g128 h.s128 h.z128 h.v128 h.g64 h.s64 h.z64 h.v64 (by norm_num : 0 < 50000)
    (tgtCol h row) (srcCol h col) (wCol h vals) (hidden h row col vals x W1) W2
    (wCol_real h vals hv) (hidden_real h row col vals x W1 hv hx hW1) hW2

/-- The side conditions hold: each is a decidable fact about the literal shapes. -/
theorem shapes : Shapes where
  g128 := by decide
  s128 := by decide
  z128 := by decide
  v128 := by decide
  g64 := by decide
  s64 := by decide
  z64 := by decide
  v64 := by decide
  col := by decide
  zE := by decide

end Cert.Gcn

end
-- ==== Proof.Blocks0.lean ====
/-
  The first matrix-product region, read as a value. The region walks the 50000 rows of its left operand A in ten blocks
  of 5000 rows; at each block it multiplies the block by the whole 128x128 matrix W (both operands rounded to bf16
  first, which at the ideal instance changes nothing), cuts the product at zero and writes the 5000x128 result back as
  the same block of rows of the output. Entry (p, q) of a block's result depends on row p of the block and column q
  of W only, so block t of the output is block t of the one whole-array function  max(A * W, 0);  the ten blocks
  tile the rows, so after the region the output array IS that function of the arrays the region found.
-/
import proofs.«137338_j34660386078859_2_alg».proof.Proof.Gen.KernelIdeal.Frame
import proofs.«137338_j34660386078859_2_alg».proof.Proof.GcnSpec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDotGeneralPlain Cert.LibMatmulPlain

variable (V : (c : Dev nD) → (b : Ref sig .tc) → Buf (Elt Ideal) ((c : Thread nD τ).loc b))

theorem zeros2 : (![0, 0] : Fin 2 → Nat) = fun _ => 0 := funext fun a => by fin_cases a <;> rfl

/-- An entry of the block the first body stores: the row of the left block times the column of the right matrix,
    cut at zero. -/
theorem pay0_entry (x0 : Vec Ideal S5000x128 .f32) (x1 : Vec Ideal S128x128 .f32) (p : Fin 5000) (q : Fin 128) :
    k0_pay1 x0 x1 (ix2 p q) = max (∑ k : Fin 128, x0 (ix2 p k) * x1 (ix2 k q)) 0 := by
  unfold k0_pay1
  rw [maximumf_apply, broadcast_apply]
  refine congrArg₂ max ?_ Ideal.ofBits_zero_f32
  refine (matmul_plain_zero_apply dot_S5000x128_S128x128_S5000x128_1_0_0_1_n_n rfl none _ _ p q).trans ?_
  simp only [truncf_apply, shapeCast_self]

/-- The printed index maps over the ten points: the left operand's and the output's blocks are the point's block of
    rows, all columns; the right operand's block is the whole matrix. -/
theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- A cut row-by-column product is the entry of  max(A * W, 0)  at the index i, once the row read is A's row i 0 and the
    column read is W's column i 1. -/
theorem block_entry0 (A : S50000x128.Idx → EReal) (W : S128x128.Idx → EReal)
    (x0 : S5000x128.Idx → EReal) (x1 : S128x128.Idx → EReal) (i : S50000x128.Idx) (p : Fin 5000) (q : Fin 128)
    (h0 : ∀ k : Fin 128, x0 (ix2 p k) = A (ix2 (i 0) k)) (h1 : ∀ k : Fin 128, x1 (ix2 k q) = W (ix2 k (i 1))) :
    max (∑ k : Fin 128, x0 (ix2 p k) * x1 (ix2 k q)) 0 = Cert.Gcn.relu Cert.Gcn.shapes (matProd A W) i := by
  rw [Cert.Gcn.relu_apply]
  refine congrArg (fun z => max z 0) ?_
  show _ = ∑ k : Fin 128, A (ix2 (i 0) k) * W (ix2 k (i 1))
  exact Finset.sum_congr rfl fun k _ => by rw [h0 k, h1 k]

/-- WHAT POINT t WRITES BACK is block t of  max(A * W, 0)  of the arrays as the region finds them: the left block's row
    (r, k) is the array's row (5000 t + r, k), the right block is the whole matrix, and the output block's row r is the
    array's row 5000 t + r. -/
theorem flushed0 (c : Dev nD) (t : Fin cfg0.N) :
    (dat0 V c).flushed 2 t = ((cfg0.win 2).blk t).view.read (Elt Ideal)
      (Cert.Gcn.relu Cert.Gcn.shapes (matProd (V c main_v14) (V c main_arg4))) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := idx_facts0 t
  funext j
  obtain ⟨p, q, rfl⟩ : ∃ (p : Fin 5000) (q : Fin 128), j = ix2 p q := ⟨j 0, j 1, eq_ix2 j⟩
  refine (pay0_entry (iblk0 V c 0 t) (iblk0 V c 1 t) p q).trans ?_
  refine block_entry0 (V c main_v14) (V c main_arg4) _ _ (((cfg0.win 2).blk t).view.emb (ix2 p q)) p q (fun k => ?_) (fun k => ?_)
  · show V c main_v14 (((cfg0.win 0).blk t).view.emb (ix2 p k)) = V c main_v14 (ix2 ((((cfg0.win 2).blk t).view.emb (ix2 p q)) 0) k)
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_arg4 (((cfg0.win 1).blk t).view.emb (ix2 k q)) = V c main_arg4 (ix2 k ((((cfg0.win 2).blk t).view.emb (ix2 p q)) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- The ten blocks of 5000 rows cover the 50000 rows: row r lies in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the first region:  max(A * W, 0)  of the arrays the region found. -/
theorem arr0 (c : Dev nD) :
    (dat0 V c).arrAt 2 cfg0.N = Cert.Gcn.relu Cert.Gcn.shapes (matProd (V c main_v14) (V c main_arg4)) :=
  (dat0 V c).arrAt_eq_of_cover 2 _ (fun t _ => flushed0 V c t) cover0

end Cert.KernelIdeal.Blocks

end
-- ==== Proof.Blocks1.lean ====
/-
  The second matrix-product region, read as a value. It walks the 50000 rows of its left operand H in ten blocks of
  5000 rows and writes, as the same block of rows of the output, the block's product with the whole 128x64 matrix W
  (operands rounded to bf16 first, the identity at the ideal instance). Entry (p, q) of a block's product depends on
  row p of the block and column q of W only, so block t of the output is block t of the whole-array product  H * W;
  the ten blocks tile the rows, so after the region the output array IS the product of the arrays the region found.
-/
import proofs.«137338_j34660386078859_2_alg».proof.Proof.Gen.KernelIdeal.Frame
import proofs.«137338_j34660386078859_2_alg».proof.Proof.GcnSpec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDotGeneralPlain Cert.LibMatmulPlain

variable (V : (c : Dev nD) → (b : Ref sig .tc) → Buf (Elt Ideal) ((c : Thread nD τ).loc b))

theorem origin2 : (![0, 0] : Fin 2 → Nat) = fun _ => 0 := funext fun a => by fin_cases a <;> rfl

/-- An entry of the block the second body stores: the row of the left block times the column of the right matrix. -/
theorem pay1_entry (x0 : Vec Ideal S5000x128 .f32) (x1 : Vec Ideal S128x64 .f32) (p : Fin 5000) (q : Fin 64) :
    k1_pay1 x0 x1 (ix2 p q) = ∑ k : Fin 128, x0 (ix2 p k) * x1 (ix2 k q) := by
  unfold k1_pay1
  refine (matmul_plain_zero_apply dot_S5000x128_S128x64_S5000x64_1_0_0_1_n_n rfl none _ _ p q).trans ?_
  simp only [truncf_apply, shapeCast_self]

/-- The printed index maps over the ten points: the left operand's and the output's blocks are the point's block of
    rows, all columns; the right operand's block is the whole matrix. -/
theorem idx_facts1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- A row-by-column product is the entry of  H * W  at the index i, once the row read is H's row i 0 and the column
    read is W's column i 1. -/
theorem block_entry1 (H : S50000x128.Idx → EReal) (W : S128x64.Idx → EReal)
    (x0 : S5000x128.Idx → EReal) (x1 : S128x64.Idx → EReal) (i : S50000x64.Idx) (p : Fin 5000) (q : Fin 64)
    (h0 : ∀ k : Fin 128, x0 (ix2 p k) = H (ix2 (i 0) k)) (h1 : ∀ k : Fin 128, x1 (ix2 k q) = W (ix2 k (i 1))) :
    ∑ k : Fin 128, x0 (ix2 p k) * x1 (ix2 k q) = matProd H W i := by
  show _ = ∑ k : Fin 128, H (ix2 (i 0) k) * W (ix2 k (i 1))
  exact Finset.sum_congr rfl fun k _ => by rw [h0 k, h1 k]

/-- WHAT POINT t WRITES BACK is block t of  H * W  of the arrays as the region finds them: the left block's row (r, k)
    is the array's row (5000 t + r, k), the right block is the whole matrix, and the output block's row r is the
    array's row 5000 t + r. -/
theorem flushed1 (c : Dev nD) (t : Fin cfg1.N) :
    (dat1 V c).flushed 2 t = ((cfg1.win 2).blk t).view.read (Elt Ideal) (matProd (V c main_v15) (V c main_arg5)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128x64) origin2]
  obtain ⟨e0, e1, e2, e3, e4, e5⟩ := idx_facts1 t
  funext j
  obtain ⟨p, q, rfl⟩ : ∃ (p : Fin 5000) (q : Fin 64), j = ix2 p q := ⟨j 0, j 1, eq_ix2 j⟩
  refine (pay1_entry (iblk1 V c 0 t) (iblk1 V c 1 t) p q).trans ?_
  refine block_entry1 (V c main_v15) (V c main_arg5) _ _ (((cfg1.win 2).blk t).view.emb (ix2 p q)) p q (fun k => ?_) (fun k => ?_)
  · show V c main_v15 (((cfg1.win 0).blk t).view.emb (ix2 p k)) = V c main_v15 (ix2 ((((cfg1.win 2).blk t).view.emb (ix2 p q)) 0) k)
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  · show V c main_arg5 (((cfg1.win 1).blk t).view.emb (ix2 k q)) = V c main_arg5 (ix2 k ((((cfg1.win 2).blk t).view.emb (ix2 p q)) 1))
    refine congrArg _ (funext fun a => Fin.ext ?_)
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega

/-- An index of the output array is in point t's block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v16).slice (win1_2.rect t)).set ↔ _
  rw [View.set_slice_whole, Rect.mem_set_unit]
  exact Iff.rfl

/-- The ten blocks of 5000 rows cover the 50000 rows: row r lies in the block of point r / 5000. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE OUTPUT ARRAY after the second region:  H * W  of the arrays the region found. -/
theorem arr1 (c : Dev nD) :
    (dat1 V c).arrAt 2 cfg1.N = matProd (V c main_v15) (V c main_arg5) :=
  (dat1 V c).arrAt_eq_of_cover 2 _ (fun t _ => flushed1 V c t) cover1

end Cert.KernelIdeal.Blocks

end
-- ==== Proof.KernelValue.lean ====
/-
  The kernel program's result as a value: the buffer contents at the segment boundaries, read one boundary at a time.

  * After the first stretch of host operations the left operand of the first region holds the aggregate of x along the
    edges (the operations are the specification's own: the bf16 roundings around the gather are the identity at the
    ideal instance), and W1, W2 and the edge arrays are as launched.
  * The first region leaves  max(A(x) * W1, 0),  the hidden table H, in its output and nothing else changed.
  * The second region leaves  H * W2  in its output and nothing else changed.
  * The last stretch of host operations aggregates that 64-column table along the same edges.
  So the result buffer ends at the second layer computed with the projection first.
-/
import proofs.«137338_j34660386078859_2_alg».proof.Proof.Blocks0
import proofs.«137338_j34660386078859_2_alg».proof.Proof.Blocks1
import Idealize.ShloMosaic.Lib.StableHlo.Run

set_option maxRecDepth 16384

noncomputable section

namespace Cert.KernelIdeal.GcnValue

open Cert.KernelIdeal Cert.KernelIdeal.Gen Cert.KernelIdeal.Blocks
open Idealize.ShloMosaic Idealize.ShloMosaic.TcCoe Idealize.SL.Sem Idealize.ShloMosaic.StableHlo
open Cert.LibDotGeneralPlain

variable (m : (ℓ : Loc nD τ sig) → Buf (Elt Ideal) ℓ) (ρ : Dev nD → PrngReg)

/-! ## After the first stretch of host operations -/

/-- The first region's left operand: the aggregate of x along the edges. -/
theorem entry_left (c : Dev nD) :
    W1 m ρ c (Proc.devRef .tc main_v14)
      = Cert.Gcn.agg128 Cert.Gcn.shapes (m ((c.tc : Thread nD τ).loc main_arg1)) (m ((c.tc : Thread nD τ).loc main_arg2))
          (m ((c.tc : Thread nD τ).loc main_arg3)) (m ((c.tc : Thread nD τ).loc main_arg0)) := by
  show StableHlo.after hostOps0 (W0 m ρ c) (Proc.devRef .tc main_v14) = _
  after_results
  rfl

theorem entry_arg1 (c : Dev nD) : W1 m ρ c (Proc.devRef .tc main_arg1) = m ((c.tc : Thread nD τ).loc main_arg1) := by
  show StableHlo.after hostOps0 (W0 m ρ c) (Proc.devRef .tc main_arg1) = _
  after_results
theorem entry_arg2 (c : Dev nD) : W1 m ρ c (Proc.devRef .tc main_arg2) = m ((c.tc : Thread nD τ).loc main_arg2) := by
  show StableHlo.after hostOps0 (W0 m ρ c) (Proc.devRef .tc main_arg2) = _
  after_results
theorem entry_arg3 (c : Dev nD) : W1 m ρ c (Proc.devRef .tc main_arg3) = m ((c.tc : Thread nD τ).loc main_arg3) := by
  show StableHlo.after hostOps0 (W0 m ρ c) (Proc.devRef .tc main_arg3) = _
  after_results
theorem entry_arg4 (c : Dev nD) : W1 m ρ c (Proc.devRef .tc main_arg4) = m ((c.tc : Thread nD τ).loc main_arg4) := by
  show StableHlo.after hostOps0 (W0 m ρ c) (Proc.devRef .tc main_arg4) = _
  after_results
theorem entry_arg5 (c : Dev nD) : W1 m ρ c (Proc.devRef .tc main_arg5) = m ((c.tc : Thread nD τ).loc main_arg5) := by
  show StableHlo.after hostOps0 (W0 m ρ c) (Proc.devRef .tc main_arg5) = _
  after_results

/-! ## After the first region -/

/-- The first region's output: the hidden table  max(A(x) * W1, 0). -/
theorem hidden_eq (c : Dev nD) :
    W2 m ρ c (Proc.devRef .tc main_v15)
      = Cert.Gcn.hidden Cert.Gcn.shapes (m ((c.tc : Thread nD τ).loc main_arg1)) (m ((c.tc : Thread nD τ).loc main_arg2))
          (m ((c.tc : Thread nD τ).loc main_arg3)) (m ((c.tc : Thread nD τ).loc main_arg0)) (m ((c.tc : Thread nD τ).loc main_arg4)) :=
  ((W2_arr m ρ c 2).trans (arr0 (V1 m ρ) c)).trans
    (congrArg₂ (fun (a : FVec Ideal S50000x128 .f32) (w : FVec Ideal S128x128 .f32) => Cert.Gcn.relu Cert.Gcn.shapes (matProd a w))
      (entry_left m ρ c) (entry_arg4 m ρ c))

theorem mid_arg1 (c : Dev nD) : W2 m ρ c (Proc.devRef .tc main_arg1) = m ((c.tc : Thread nD τ).loc main_arg1) :=
  (W2_of_ne m ρ c main_arg1 (by decide)).trans (entry_arg1 m ρ c)
theorem mid_arg2 (c : Dev nD) : W2 m ρ c (Proc.devRef .tc main_arg2) = m ((c.tc : Thread nD τ).loc main_arg2) :=
  (W2_of_ne m ρ c main_arg2 (by decide)).trans (entry_arg2 m ρ c)
theorem mid_arg3 (c : Dev nD) : W2 m ρ c (Proc.devRef .tc main_arg3) = m ((c.tc : Thread nD τ).loc main_arg3) :=
  (W2_of_ne m ρ c main_arg3 (by decide)).trans (entry_arg3 m ρ c)
theorem mid_arg5 (c : Dev nD) : W2 m ρ c (Proc.devRef .tc main_arg5) = m ((c.tc : Thread nD τ).loc main_arg5) :=
  (W2_of_ne m ρ c main_arg5 (by decide)).trans (entry_arg5 m ρ c)

/-! ## After the second region -/

/-- The second region's output: the hidden table times W2. -/
theorem projected_eq (c : Dev nD) :
    W3 m ρ c (Proc.devRef .tc main_v16)
      = matProd (Cert.Gcn.hidden Cert.Gcn.shapes (m ((c.tc : Thread nD τ).loc main_arg1)) (m ((c.tc : Thread nD τ).loc main_arg2))
          (m ((c.tc : Thread nD τ).loc main_arg3)) (m ((c.tc : Thread nD τ).loc main_arg0)) (m ((c.tc : Thread nD τ).loc main_arg4)))
          (m ((c.tc : Thread nD τ).loc main_arg5)) :=
  ((W3_arr m ρ c 2).trans (arr1 (V2 m ρ) c)).trans
    (congrArg₂ (fun (a : FVec Ideal S50000x128 .f32) (w : FVec Ideal S128x64 .f32) => matProd a w)
      (hidden_eq m ρ c) (mid_arg5 m ρ c))

theorem late_arg1 (c : Dev nD) : W3 m ρ c (Proc.devRef .tc main_arg1) = m ((c.tc : Thread nD τ).loc main_arg1) :=
  (W3_of_ne m ρ c main_arg1 (by decide)).trans (mid_arg1 m ρ c)
theorem late_arg2 (c : Dev nD) : W3 m ρ c (Proc.devRef .tc main_arg2) = m ((c.tc : Thread nD τ).loc main_arg2) :=
  (W3_of_ne m ρ c main_arg2 (by decide)).trans (mid_arg2 m ρ c)
theorem late_arg3 (c : Dev nD) : W3 m ρ c (Proc.devRef .tc main_arg3) = m ((c.tc : Thread nD τ).loc main_arg3) :=
  (W3_of_ne m ρ c main_arg3 (by decide)).trans (mid_arg3 m ρ c)

/-! ## After the last stretch of host operations -/

set_option maxHeartbeats 1000000 in
/-- The last stretch's operations from ANY buffer contents: the result buffer ends at the specification's aggregate of
    the second region's output along the edges read from the edge arrays (the roundings to and from bf16 around the
    gather are the identity here). -/
theorem tail_at (Wv : Valuation τ sig (Elt Ideal)) :
    StableHlo.after hostOps2 Wv (Proc.devRef .tc main_v31)
      = Cert.Gcn.agg64 Cert.Gcn.shapes (Wv (Proc.devRef .tc main_arg1)) (Wv (Proc.devRef .tc main_arg2))
          (Wv (Proc.devRef .tc main_arg3)) (Wv (Proc.devRef .tc main_v16)) := by
  after_results
  rfl

/-- The last stretch aggregates the second region's output along the edges it reads from the edge arrays. -/
theorem tail_eq (c : Dev nD) :
    W4 m ρ c (Proc.devRef .tc main_v31)
      = Cert.Gcn.agg64 Cert.Gcn.shapes (W3 m ρ c (Proc.devRef .tc main_arg1)) (W3 m ρ c (Proc.devRef .tc main_arg2))
          (W3 m ρ c (Proc.devRef .tc main_arg3)) (W3 m ρ c (Proc.devRef .tc main_v16)) :=
  tail_at (W3 m ρ c)

/-- THE RESULT: the second layer computed with the projection first, of the launch arrays. -/
theorem result_eq (c : Dev nD) :
    W4 m ρ c (Proc.devRef .tc main_v31)
      = Cert.Gcn.outProjectFirst Cert.Gcn.shapes (m ((c.tc : Thread nD τ).loc main_arg1)) (m ((c.tc : Thread nD τ).loc main_arg2))
          (m ((c.tc : Thread nD τ).loc main_arg3)) (m ((c.tc : Thread nD τ).loc main_arg0))
          (m ((c.tc : Thread nD τ).loc main_arg4)) (m ((c.tc : Thread nD τ).loc main_arg5)) := by
  rw [tail_eq, late_arg1, late_arg2, late_arg3, projected_eq]
  rfl

end Cert.KernelIdeal.GcnValue

end
-- ==== Proof.RefValue.lean ====
/-
  The reference program's result as a value. Its run ends with the result buffer at the composition of its host
  operations applied to the argument arrays. Read from the inside out that composition is: the edge columns (source
  words wrapped, target words, weights), the aggregate of x along the edges, the product with W1 and the cut at zero,
  the aggregate of that hidden table, and last the product with W2 — the second layer with the projection last. The
  two host products are plain 50000 x 128 by 128 x N products, so each is the matrix product function of its operands;
  everything else is the specification's own composition of the same operations.
-/
import proofs.«137338_j34660386078859_2_alg».proof.Proof.Gen.ReferenceIdeal.Run
import proofs.«137338_j34660386078859_2_alg».proof.Proof.GcnSpec

set_option maxRecDepth 16384

noncomputable section

namespace Cert.ReferenceIdeal.GcnValue

open Cert.ReferenceIdeal Cert.ReferenceIdeal.Gen
open Idealize.ShloMosaic Idealize.ShloMosaic.TcCoe Idealize.SL.Sem
open Cert.LibDotGeneralPlain

/-- The reference's run with its result named: the second layer with the projection last, of the launch arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = Cert.Gcn.outProjectLast Cert.Gcn.shapes (m ((c.tc : Thread nD τ).loc main_arg1)) (m ((c.tc : Thread nD τ).loc main_arg2))
            (m ((c.tc : Thread nD τ).loc main_arg3)) (m ((c.tc : Thread nD τ).loc main_arg0))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by
      unfold Host.dotGeneral
      rw [dotGeneral_plain_eq dot_S50000x128_S128x64_S50000x64_1_0_0_1_n_n rfl none .single,
        dotGeneral_plain_eq dot_S50000x128_S128x128_S50000x128_1_0_0_1_n_n rfl none .single]
      rfl), (h c).2⟩)
    (Cert.ReferenceIdeal.Value.run (F := Ideal) m ρ)

end Cert.ReferenceIdeal.GcnValue

end
-- ==== Proof.LibFiniteEntry.lean ====
/-
  An extended real whose absolute value is below the float +infinity is a real number.

  A "every input is finite" precondition compares |v| = max(v, -v) with the f32 word 0x7F800000, which denotes
  +infinity. On the extended reals |v| < +inf fails exactly at v = +inf and at v = -inf (whose absolute value is
  +inf), so it holds exactly of the real numbers.
-/
import Idealize.ShloMosaic.PureOps.Ideal

noncomputable section

namespace Cert.FiniteEntry

open Idealize.ShloMosaic

/-- The f32 word 0x7F800000 is +infinity. -/
theorem ofBits_pos_inf : Ideal.ofBits .f32 0x7F800000#32 = ⊤ := by simp [Ideal.ofBits, Ideal.ieee]

/-- An extended real whose absolute value max(v, -v) is below the float +infinity is a real number. -/
theorem real_of_abs_lt {v : EReal}
    (h : Ideal.cmp .olt (max v (-v)) (Ideal.ofBits .f32 0x7F800000#32) = 1#1) : ∃ r : ℝ, v = r := by
  rw [ofBits_pos_inf] at h
  induction v using EReal.rec with
  | bot => simp [Ideal.cmp] at h
  | coe r => exact ⟨r, rfl⟩
  | top => simp [Ideal.cmp] at h

end Cert.FiniteEntry

end
-- ==== Proof.Finite.lean ====
/-
  What the precondition says of the float inputs. The precondition computes, for each of x, vals, W1 and W2, whether
  every entry v has |v| = max(v, -v) below the f32 word for +infinity, and conjoins the four answers. On the extended
  reals |v| < +inf holds exactly of the real numbers (it fails at +inf and at -inf), so under the precondition every
  entry of the four arrays is a real number.
-/
import proofs.«137338_j34660386078859_2_alg».proof.Pre_finite_inputs
import proofs.«137338_j34660386078859_2_alg».proof.Proof.LibFiniteEntry
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable [Facts]

instance : Subsingleton S_.Idx := ⟨fun a b => funext fun d => d.elim0⟩

/-- One entry's test read back: |v| below +infinity makes v a real number. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = r :=
  Cert.FiniteEntry.real_of_abs_lt h

/-- Under the precondition the four float inputs have real entries. -/
theorem reals_of_pre (x : FVec Ideal S50000x128 .f32) (row col : IVec S800000 32) (vals : FVec Ideal S800000 .f32)
    (W1 : FVec Ideal S128x128 .f32) (W2 : FVec Ideal S128x64 .f32)
    (h : fn (F := Ideal) x row col vals W1 W2 = fun _ => 1#1) :
    (∀ i, ∃ r : ℝ, x i = r) ∧ (∀ i, ∃ r : ℝ, vals i = r) ∧ (∀ i, ∃ r : ℝ, W1 i = r) ∧ (∀ i, ∃ r : ℝ, W2 i = r) := by
  have e := congrFun h ix0
  unfold fn fn_part1 at e
  simp only [andi] at e
  rw [IntOp.andi_eq_one, IntOp.andi_eq_one, IntOp.andi_eq_one] at e
  obtain ⟨⟨⟨hx, hv⟩, hW1⟩, hW2⟩ := e
  exact ⟨fun i => entry_real x _ i (Host.reduce_andi_all _ _ _ _ _ hx i),
    fun i => entry_real vals _ i (Host.reduce_andi_all _ _ _ _ _ hv i),
    fun i => entry_real W1 _ i (Host.reduce_andi_all _ _ _ _ _ hW1 i),
    fun i => entry_real W2 _ i (Host.reduce_andi_all _ _ _ _ _ hW2 i)⟩

end Cert.Pre_finite_inputs.Decode

end
-- ==== Proof.lean ====
/-
  A two-layer graph convolution: the kernel program against its reference, at the ideal instance.

  Both programs aggregate node features along 800000 weighted edges (gather the source rows, scale by the edge weights,
  scatter-add into the target rows: the operator A), multiply by W1 and cut at zero to get a hidden table H, and then
  form the second layer. The reference aggregates H and multiplies by W2 last,  A(H) * W2.  The kernel program
  computes  H = max(A(x) * W1, 0)  and  H * W2  in two row-blocked matrix-product regions and aggregates the 64-column
  product afterwards,  A(H * W2).  Its bf16 roundings (around the gathers and inside the regions) are the identity at the
  ideal instance, and a product computed in ten blocks of 5000 rows is the whole product.

  The two second layers are equal because aggregation is linear in the feature axis: entry (n, q) of both is
  sum over the edges e into n of  vals[e] * sum_k H[src e, k] * W2[k, q].  Moving the weight and the inner sum across
  each other uses distributivity on the extended reals, which needs real numbers: the precondition makes x, vals, W1
  and W2 real, and H is then real as a cut sum of products of reals.

  The modules: GcnSpec (the two orders and their equality on reals), Blocks0 / Blocks1 (each region's output array as
  one function of the arrays it found), KernelRun (the program's run with the result buffer read), KernelValue (the
  contents at each boundary of the run, down to the result), RefValue (the reference's result), Finite (what the
  precondition says of the inputs). The three frames are the generated runs; the idealization rewrote nothing.
-/
import proofs.«137338_j34660386078859_2_alg».proof.Defs
import proofs.«137338_j34660386078859_2_alg».proof.Proof.Gen.Kernel
import proofs.«137338_j34660386078859_2_alg».proof.Proof.Gen.Kernel.Frame
import proofs.«137338_j34660386078859_2_alg».proof.Proof.Gen.KernelIdeal
import proofs.«137338_j34660386078859_2_alg».proof.Proof.Gen.KernelIdeal.Frame
import proofs.«137338_j34660386078859_2_alg».proof.Proof.Gen.ReferenceIdeal
import proofs.«137338_j34660386078859_2_alg».proof.Proof.Gen.ReferenceIdeal.Run
import proofs.«137338_j34660386078859_2_alg».proof.Proof.Gen.Pre_finite_inputs
import proofs.«137338_j34660386078859_2_alg».proof.Proof.KernelRun
import proofs.«137338_j34660386078859_2_alg».proof.Proof.KernelValue
import proofs.«137338_j34660386078859_2_alg».proof.Proof.RefValue
import proofs.«137338_j34660386078859_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, the kernel program ends at the second layer with the projection first and
    the reference at the second layer with the projection last, of the same real arrays: one table. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Gcn.outProjectFirst Cert.Gcn.shapes
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.GcnValue.result_eq m ρ c), (h c).2⟩)
      (Cert.KernelIdeal.Whole.run_result m ρ)
  · refine (θ_run Cert.ReferenceIdeal.defs _ _).mono (fun r h c => ⟨(h c).1.trans ?_, (h c).2⟩)
      (Cert.ReferenceIdeal.GcnValue.run m' ρ')
    obtain ⟨a0, a1, a2, a3, a4, a5⟩ := hagree c
    rw [a0, a1, a2, a3, a4, a5]
    obtain ⟨hx, hv, hW1, hW2⟩ := Cert.Pre_finite_inputs.Decode.reals_of_pre _ _ _ _ _ _ (hpre c)
    exact (Cert.Gcn.out_eq Cert.Gcn.shapes _ _ _ _ _ _ hv hx hW1 hW2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
